-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S1024x1024 : Shape := ⟨2, ![1024, 1024]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x256x512 .f32) (main_arg1 : FVec F S4x64x512 .f32) (main_arg2 : FVec F S1024x1024 .f32) (main_arg3 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x256x512 : Shape := ⟨3, ![4, 256, 512]⟩
abbrev S4x64x512 : Shape := ⟨3, ![4, 64, 512]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S1x1024 : Shape := ⟨2, ![1, 1024]⟩
abbrev S4x256x64x1024 : Shape := ⟨4, ![4, 256, 64, 1024]⟩
abbrev S1x32x512 : Shape := ⟨3, ![1, 32, 512]⟩
abbrev S1x32x32x1024 : Shape := ⟨4, ![1, 32, 32, 1024]⟩
abbrev S32x512 : Shape := ⟨2, ![32, 512]⟩
abbrev S32x1024 : Shape := ⟨2, ![32, 1024]⟩
abbrev S32x1x1024 : Shape := ⟨3, ![32, 1, 1024]⟩
abbrev S1x32x1024 : Shape := ⟨3, ![1, 32, 1024]⟩
abbrev S32x32x1024 : Shape := ⟨3, ![32, 32, 1024]⟩
abbrev S32x32 : Shape := ⟨2, ![32, 32]⟩
abbrev S32x32x1 : Shape := ⟨3, ![32, 32, 1]⟩

abbrev nBuf : Space → Nat
  | .hbm => 12
  | .vmem => 9
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S1024x512, .f32⟩
  | .hbm, ⟨6, _⟩ => ⟨S512x1024, .f32⟩
  | .hbm, ⟨7, _⟩ => ⟨S512x1024, .bf16⟩
  | .hbm, ⟨8, _⟩ => ⟨S512x1024, .f32⟩
  | .hbm, ⟨9, _⟩ => ⟨S512x1024, .bf16⟩
  | .hbm, ⟨10, _⟩ => ⟨S1x1024, .f32⟩
  | .hbm, ⟨11, _⟩ => ⟨S4x256x64x1024, .f32⟩
  | .local _ .vmem, ⟨0, _⟩ => ⟨S1x32x512, .f32⟩
  | .local _ .vmem, ⟨1, _⟩ => ⟨S1x32x512, .f32⟩
  | .local _ .vmem, ⟨2, _⟩ => ⟨S1x32x512, .f32⟩
  | .local _ .vmem, ⟨3, _⟩ => ⟨S1x32x512, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x32x32x1024, .f32⟩
  | .local _ .vmem, ⟨8, _⟩ => ⟨S1x32x32x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x32x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  slices_S1024x1024_S1024x512_0_0 : S1024x1024.Slices ![0, 0] S1024x512
  slices_S1024x1024_S1024x512_0_512 : S1024x1024.Slices ![0, 512] S1024x512
  transposes_S1024x512_S512x1024_1_0 : S1024x512.Transposes [1, 0] S512x1024
  bitsLt_bf16_f32 : FTy.bits .bf16 < FTy.bits .f32
  shapeCasts_S1024_S1x1024 : S1024.ShapeCasts S1x1024
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  shapeCasts_S32x1024_S32x1x1024 : S32x1024.ShapeCasts S32x1x1024
  shapeCasts_S32x1024_S1x32x1024 : S32x1024.ShapeCasts S1x32x1024
  broadcasts_S32x1x1024_S32x32x1024 : S32x1x1024.Broadcasts S32x32x1024
  broadcasts_S1x32x1024_S32x32x1024 : S1x32x1024.Broadcasts S32x32x1024
  reduces_S32x32x1024_S32x32 : S32x32x1024.Reduces [2] S32x32
  shapeCasts_S32x32_S32x32x1 : S32x32.ShapeCasts S32x32x1
  broadcasts_S32x32x1_S32x32x1024 : S32x32x1.Broadcasts S32x32x1024
  inb_S1x32x32x1024_S1x32x32x1024_0_0_0_0 : ∀ a, (![0, 0, 0, 0] : Fin 4 → Nat) a + S1x32x32x1024.size a ≤ S1x32x32x1024.size a
  h_S1x32x32x1024 : 0 < S1x32x32x1024.numel
  shapeCasts_S1x32x32x1024_S32x32x1024 : S1x32x32x1024.ShapeCasts S32x32x1024
  shapeCasts_S32x32x1024_S1x32x32x1024 : S32x32x1024.ShapeCasts S1x32x32x1024
  dot_S32x512_S512x1024_S32x1024_1_0_0_1_n_n_wf : DotDims.WF S32x512 S512x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x256x512.size a
  hwx0_0 : ∀ i : grid0.Coords, EltTy.bits .f32 = 32 ∨ (Rect.block (s := S4x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S4x64x512.size a
  hwx0_1 : ∀ i : grid0.Coords, EltTy.bits .f32 = 32 ∨ (Rect.block (s := S4x64x512) S1x32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x32x1024.size a ≤ S4x256x64x1024.size a
  hwx0_5 : ∀ i : grid0.Coords, EltTy.bits .f32 = 32 ∨ (Rect.block (s := S4x256x64x1024) S1x32x32x1024.size (cc0_transform_5 i) (hinb0_5 i)).WholeWords (EltTy.packing .f32)

variable [Facts₀]

def dot_S32x512_S512x1024_S32x1024_1_0_0_1_n_n : DotDims S32x512 S512x1024 S32x1024 where
  lhsContracting := [1]
  rhsContracting := [0]
  lhsNonContracting := [0]
  rhsNonContracting := [1]
  lhsBatch := []
  rhsBatch := []
  wf := dot_S32x512_S512x1024_S32x1024_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x32x32x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S1024x1024 : Shape := ⟨2, ![1024, 1024]⟩
abbrev S1024 : Shape := ⟨1, ![1024]⟩
abbrev S1024x512 : Shape := ⟨2, ![1024, 512]⟩
abbrev S4x256x1024 : Shape := ⟨3, ![4, 256, 1024]⟩
abbrev S4x64x1024 : Shape := ⟨3, ![4, 64, 1024]⟩
abbrev S4x256x1x1024 : Shape := ⟨4, ![4, 256, 1, 1024]⟩
abbrev S4x1x64x1024 : Shape := ⟨4, ![4, 1, 64, 1024]⟩
abbrev S4x256x64x1024 : Shape := ⟨4, ![4, 256, 64, 1024]⟩
abbrev S1x1x1x1024 : Shape := ⟨4, ![1, 1, 1, 1024]⟩
abbrev S_ : Shape := ⟨0, ![]⟩
abbrev S4x256x64 : Shape := ⟨3, ![4, 256, 64]⟩
abbrev S4x256x64x1 : Shape := ⟨4, ![4, 256, 64, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S1024x512, .f32⟩
  | .hbm, ⟨6, _⟩ => ⟨S4x256x1024, .f32⟩
  | .hbm, ⟨7, _⟩ => ⟨S4x64x1024, .f32⟩
  | .hbm, ⟨8, _⟩ => ⟨S4x256x1x1024, .f32⟩
  | .hbm, ⟨9, _⟩ => ⟨S4x1x64x1024, .f32⟩
  | .hbm, ⟨10, _⟩ => ⟨S4x256x64x1024, .f32⟩
  | .hbm, ⟨11, _⟩ => ⟨S4x256x64x1024, .f32⟩
  | .hbm, ⟨12, _⟩ => ⟨S4x256x64x1024, .f32⟩
  | .hbm, ⟨13, _⟩ => ⟨S1x1x1x1024, .f32⟩
  | .hbm, ⟨14, _⟩ => ⟨S4x256x64x1024, .f32⟩
  | .hbm, ⟨15, _⟩ => ⟨S4x256x64x1024, .f32⟩
  | .hbm, ⟨16, _⟩ => ⟨S_, .f32⟩
  | .hbm, ⟨17, _⟩ => ⟨S4x256x64, .f32⟩
  | .hbm, ⟨18, _⟩ => ⟨S_, .f32⟩
  | .hbm, ⟨19, _⟩ => ⟨S4x256x64, .f32⟩
  | .hbm, ⟨20, _⟩ => ⟨S4x256x64, .f32⟩
  | .hbm, ⟨21, _⟩ => ⟨S4x256x64x1, .f32⟩
  | .hbm, ⟨22, _⟩ => ⟨S4x256x64x1024, .f32⟩
  | .hbm, ⟨23, _⟩ => ⟨S4x256x64x1024, .f32⟩
  | .hbm, ⟨24, _⟩ => ⟨S4x256x64x1024, .f32⟩
  | .hbm, ⟨25, _⟩ => ⟨S_, .f32⟩
  | .hbm, ⟨26, _⟩ => ⟨S4x256x64, .f32⟩
  | .hbm, ⟨27, _⟩ => ⟨S4x256x64x1, .f32⟩
  | .hbm, ⟨28, _⟩ => ⟨S4x256x64x1, .f32⟩
  | .hbm, ⟨29, _⟩ => ⟨S4x256x64x1024, .f32⟩
  | .hbm, ⟨30, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_call0_cst_0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_cst_1 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_v12 : Ref sig .tc := ⟨.hbm, 30, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S4x256x1024_S4x256x1x1024_0_1_3 : S4x256x1024.BroadcastsInDim S4x256x1x1024 (![0, 1, 3] : Fin 3 → Fin S4x256x1x1024.rank)
  bcast_S4x64x1024_S4x1x64x1024_0_2_3 : S4x64x1024.BroadcastsInDim S4x1x64x1024 (![0, 2, 3] : Fin 3 → Fin S4x1x64x1024.rank)
  bcast_S4x256x1x1024_S4x256x64x1024_0_1_2_3 : S4x256x1x1024.BroadcastsInDim S4x256x64x1024 (![0, 1, 2, 3] : Fin 4 → Fin S4x256x64x1024.rank)
  bcast_S4x1x64x1024_S4x256x64x1024_0_1_2_3 : S4x1x64x1024.BroadcastsInDim S4x256x64x1024 (![0, 1, 2, 3] : Fin 4 → Fin S4x256x64x1024.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  reducesTo_S4x256x64x1024_S4x256x64_d3 : S4x256x64x1024.ReducesTo [3] S4x256x64
  h_S_ : 0 < S_.numel
  bcast_S_S4x256x64 : S_.BroadcastsInDim S4x256x64 (![] : Fin 0 → Fin S4x256x64.rank)
  bcast_S4x256x64_S4x256x64x1_0_1_2 : S4x256x64.BroadcastsInDim S4x256x64x1 (![0, 1, 2] : Fin 3 → Fin S4x256x64x1.rank)
  bcast_S4x256x64x1_S4x256x64x1024_0_1_2_3 : S4x256x64x1.BroadcastsInDim S4x256x64x1024 (![0, 1, 2, 3] : Fin 4 → Fin S4x256x64x1024.rank)
  dot_S4x256x512_S1024x512_S4x256x1024_2_1_01_0_n_n_wf : DotDims.WF S4x256x512 S1024x512 S4x256x1024 [2] [1] [0, 1] [0] [] []
  dot_S4x64x512_S1024x512_S4x64x1024_2_1_01_0_n_n_wf : DotDims.WF S4x64x512 S1024x512 S4x64x1024 [2] [1] [0, 1] [0] [] []

variable [Facts₀]

def dot_S4x256x512_S1024x512_S4x256x1024_2_1_01_0_n_n : DotDims S4x256x512 S1024x512 S4x256x1024 where
  lhsContracting := [2]
  rhsContracting := [1]
  lhsNonContracting := [0, 1]
  rhsNonContracting := [0]
  lhsBatch := []
  rhsBatch := []
  wf := dot_S4x256x512_S1024x512_S4x256x1024_2_1_01_0_n_n_wf
def dot_S4x64x512_S1024x512_S4x64x1024_2_1_01_0_n_n : DotDims S4x64x512 S1024x512 S4x64x1024 where
  lhsContracting := [2]
  rhsContracting := [1]
  lhsNonContracting := [0, 1]
  rhsNonContracting := [0]
  lhsBatch := []
  rhsBatch := []
  wf := dot_S4x64x512_S1024x512_S4x64x1024_2_1_01_0_n_n_wf

class Facts : Prop extends Facts₀ where

variable [Facts]
-- ==== Proof.LibRank3Layouts.lean ====
/-
  Layout operations on rank-3 arrays read at an index written by coordinates: the forms a pairwise sum
  `x[:, None, :] + y[None, :, :]` and a last-axis reduction kept as a unit axis (`keepdims`) are built from.
  Each is the parent lemma of Lib/Pipeline/Value.lean (`shapeCast_apply`: equal row-major positions;
  `broadcastTo_apply`: the operand's coordinate is the result's, or 0 on a unit axis) with both indices written
  `ix2 …` / `ix3 …`, general in the extents.
  • `shapeCast_ac_a1c_apply`   [a, c]    → [a, 1, c]  : (i, u, j) reads (i, j)
  • `shapeCast_ab_ab1_apply`   [a, b]    → [a, b, 1]  : (i, j, u) reads (i, j)
  • `broadcastTo_a1c_abc_apply` [a, 1, c] → [a, b, c]  : (i, q, j) reads (i, 0, j)
  • `broadcastTo_1bc_abc_apply` [1, b, c] → [a, b, c]  : (p, i, j) reads (0, i, j)
  • `broadcastTo_ab1_abc_apply` [a, b, 1] → [a, b, c]  : (i, j, k) reads (i, j, 0)
-/
import Idealize.ShloMosaic.Lib.ValueLayout

namespace Cert.LibRank3

open Idealize.ShloMosaic Idealize.ShloMosaic.ValueIdx

variable {α : Type}

/-- An `[a, c]` array cast to `[a, 1, c]` reads, at `(i, u, j)`, the operand at `(i, j)`: the unit axis adds nothing
    to the row-major position. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, c]` array broadcast to `[a, b, c]` reads, at `(i, q, j)`, the operand's one middle entry `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (q : Fin b) (j : Fin c) :
    broadcastTo ⟨3, ![a, b, c]⟩ v h (ix3 i q j) = v (ix3 i (0 : Fin 1) j) := by
  refine broadcastTo_apply v h (ix3 i q j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(p, i, j)`, the operand's one leading entry `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An `[a, b, 1]` array broadcast to `[a, b, c]` reads, at `(i, j, k)`, the operand's one trailing entry `(i, j, 0)`:
    a kept reduction spread back over the reduced axis. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.LibRank3
-- ==== Proof.RowLogSoftmax.lean ====
/-
  The function both programs compute, over the extended reals, with no program in sight.

  A ROW is the 1024 logits of one (batch, encoder step, decoder step). Its log-softmax, in the shifted form both
  programs spell, is: take the row's maximum `M` (a fold of `max` from −∞), subtract it from every entry, and
  subtract from each shifted entry the logarithm of the sum of the exponentials of the shifted entries:
      out v = (r v − M) − log (Σ_k exp (r k − M)).
  It is kept as ONE function of the row (`logSoftmaxRow`): the two programs apply the same operations to the row, so
  the certificate shows the two ROWS equal and never opens the softmax (subtraction, `exp` and `log` at ±∞ are
  whatever the ideal instance says; both sides meet them on the same values).

  The logit at (b, t, u, v) is the encoder's projection plus the decoder's plus the bias,
      Σ_d enc[b,t,d]·W[v,d]  +  Σ_d dec[b,u,d]·W[v,512+d]  +  bias[v],
  the weight matrix's row `v` split into its first and second 512 columns. One program adds the bias to the
  decoder's projection first, the other adds it last: addition of extended reals is associative (`logit_assoc`), with
  no condition on the summands, so finiteness of the inputs is never used.
-/
import Idealize.ShloMosaic.PureOps.Ideal
import Idealize.ShloMosaic.Lib.ValueIdx

noncomputable section

open scoped BigOperators

namespace Cert.JointLogSoftmax

open Idealize.ShloMosaic Idealize.ShloMosaic.ValueIdx

/-- The f32 pattern of −∞ denotes the least extended real. -/
theorem negInf_eq_bot : Ideal.ofBits .f32 0xFF800000#32 = (⊥ : EReal) := by simp [Ideal.ofBits, Ideal.ieee]

/-- The maximum against −∞ is the identity (a second `maximum` with the fold's own start value changes nothing). -/
theorem max_negInf (x : EReal) : max (Ideal.ofBits .f32 0xFF800000#32) x = x := by
  rw [negInf_eq_bot]; exact max_bot_left x

/-- A row's maximum: the fold of `max` from −∞ over its 1024 entries. -/
def rowMax (r : Fin 1024 → EReal) : EReal :=
  (Finset.univ : Finset (Fin 1024)).fold max (Ideal.ofBits .f32 0xFF800000#32) r

/-- The log-softmax of a row at entry `v`, in the shifted form: `(r v − M) − log Σ_k exp (r k − M)`, `M` the row's maximum. -/
def logSoftmaxRow (r : Fin 1024 → EReal) (v : Fin 1024) : EReal :=
  (r v - rowMax r) - Ideal.log (∑ k : Fin 1024, Ideal.exp (r k - rowMax r))

/-- Column `d` of the weight matrix's first half. -/
abbrev colEnc (d : Fin 512) : Fin 1024 := ⟨d.val, by have := d.isLt; omega⟩
/-- Column `512 + d`: the same position in the second half. -/
abbrev colDec (d : Fin 512) : Fin 1024 := ⟨512 + d.val, by have := d.isLt; omega⟩

/-- The encoder's projection at (b, t, v): row `v` of the weights' first half against the encoder's vector. -/
def encProj (enc : (⟨3, ![4, 256, 512]⟩ : Shape).Idx → EReal) (W : (⟨2, ![1024, 1024]⟩ : Shape).Idx → EReal)
    (b : Fin 4) (t : Fin 256) (v : Fin 1024) : EReal :=
  ∑ d : Fin 512, enc (ix3 b t d) * W (ix2 v (colEnc d))

/-- The decoder's projection at (b, u, v): row `v` of the weights' second half against the decoder's vector. -/
def decProj (dec : (⟨3, ![4, 64, 512]⟩ : Shape).Idx → EReal) (W : (⟨2, ![1024, 1024]⟩ : Shape).Idx → EReal)
    (b : Fin 4) (u : Fin 64) (v : Fin 1024) : EReal :=
  ∑ d : Fin 512, dec (ix3 b u d) * W (ix2 v (colDec d))

/-- The row of logits at (b, t, u), the bias added to the decoder's projection first. -/
def logits (enc : (⟨3, ![4, 256, 512]⟩ : Shape).Idx → EReal) (dec : (⟨3, ![4, 64, 512]⟩ : Shape).Idx → EReal)
    (W : (⟨2, ![1024, 1024]⟩ : Shape).Idx → EReal) (bias : (⟨1, ![1024]⟩ : Shape).Idx → EReal)
    (b : Fin 4) (t : Fin 256) (u : Fin 64) : Fin 1024 → EReal :=
  fun v => encProj enc W b t v + (decProj dec W b u v + bias (ix1 v))

/-- The same logit with the bias added last: addition on the extended reals is associative. -/
theorem logit_assoc (enc : (⟨3, ![4, 256, 512]⟩ : Shape).Idx → EReal) (dec : (⟨3, ![4, 64, 512]⟩ : Shape).Idx → EReal)
    (W : (⟨2, ![1024, 1024]⟩ : Shape).Idx → EReal) (bias : (⟨1, ![1024]⟩ : Shape).Idx → EReal)
    (b : Fin 4) (t : Fin 256) (u : Fin 64) (v : Fin 1024) :
    (encProj enc W b t v + decProj dec W b u v) + bias (ix1 v) = logits enc dec W bias b t u v :=
  add_assoc _ _ _

/-- THE RESULT as one function of the four argument arrays: at (b, t, u, v), the log-softmax over `v` of the row of
    logits at (b, t, u). -/
def G (enc : (⟨3, ![4, 256, 512]⟩ : Shape).Idx → EReal) (dec : (⟨3, ![4, 64, 512]⟩ : Shape).Idx → EReal)
    (W : (⟨2, ![1024, 1024]⟩ : Shape).Idx → EReal) (bias : (⟨1, ![1024]⟩ : Shape).Idx → EReal) :
    (⟨4, ![4, 256, 64, 1024]⟩ : Shape).Idx → EReal :=
  fun i => logSoftmaxRow (logits enc dec W bias (i 0) (i 1) (i 2)) (i 3)

/-- `G` at an index written by coordinates. -/
theorem G_ix4 (enc : (⟨3, ![4, 256, 512]⟩ : Shape).Idx → EReal) (dec : (⟨3, ![4, 64, 512]⟩ : Shape).Idx → EReal)
    (W : (⟨2, ![1024, 1024]⟩ : Shape).Idx → EReal) (bias : (⟨1, ![1024]⟩ : Shape).Idx → EReal)
    (b : Fin 4) (t : Fin 256) (u : Fin 64) (v : Fin 1024) :
    G enc dec W bias (ix4 b t u v) = logSoftmaxRow (logits enc dec W bias b t u) v := rfl

end Cert.JointLogSoftmax

end
-- ==== Proof.KernelBlock.lean ====
/-
  What the kernel's body stores at one grid point, read at an index.

  At a grid point the body holds a [1, 32, 512] block of the encoder's output (32 encoder steps), a [1, 32, 512] block of
  the decoder's (32 decoder steps), the two [512, 1024] halves of the transposed weights and the [1, 1024] bias, and
  stores a [1, 32, 32, 1024] block. At (p, q, k) — encoder step `p` and decoder step `q` of the blocks, vocabulary entry `k` —
  the logit is
      Σ_d enc[p, d]·wenc[d, k]  +  (Σ_d dec[q, d]·wdec[d, k]  +  bias[k])
  (`blockRow`): each product is a matrix product into a zero accumulator, the narrowing of its operands to bf16 the
  identity on extended reals; the bias row is spread over the decoder's steps and added to the decoder's product; the
  two products are set as [32, 1, 1024] and [1, 32, 1024] and spread to [32, 32, 1024]. The stored value at (p, q, v) is
  then the log-softmax of the row `k ↦ logit (p, q, k)` at `v`, in the shifted form: the maximum over the last axis from
  −∞, kept as a unit axis and spread back; the shift; `exp`; the sum over the last axis, kept, `log`, spread back; the
  difference (`pay_apply`).
-/
import proofs.«137516_j14903536517746_2_alg».proof.Proof.Gen.KernelIdeal.Skeleton
import proofs.«137516_j14903536517746_2_alg».proof.Proof.LibRank3Layouts
import proofs.«137516_j14903536517746_2_alg».proof.Proof.RowLogSoftmax
import Idealize.ShloMosaic.Lib.ValueLayout
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.JointLogSoftmax Cert.LibRank3

/-! ## The matrix product of a block of 32 vectors with a half of the weights -/

/-- The product's left operand index on its row axis is the result's row … -/
theorem lhs_row (i : S32x1024.Idx) (q : dot_S32x512_S512x1024_S32x1024_1_0_0_1_n_n.contr.Idx) : (dot_S32x512_S512x1024_S32x1024_1_0_0_1_n_n.lhsIdx i q 0).val = (i 0).val := by
  unfold DotDims.lhsIdx
  rw [dif_neg (show ¬(0 : Fin S32x512.rank) ∈ dot_S32x512_S512x1024_S32x1024_1_0_0_1_n_n.lhsBatch by decide), dif_pos (show (0 : Fin S32x512.rank) ∈ dot_S32x512_S512x1024_S32x1024_1_0_0_1_n_n.lhsNonContracting by decide)]
  rfl
/-- … and on its contracted axis the contraction position; -/
theorem lhs_contr (i : S32x1024.Idx) (q : dot_S32x512_S512x1024_S32x1024_1_0_0_1_n_n.contr.Idx) : (dot_S32x512_S512x1024_S32x1024_1_0_0_1_n_n.lhsIdx i q 1).val = (q ⟨0, by decide⟩).val :=
  dot_S32x512_S512x1024_S32x1024_1_0_0_1_n_n.lhsIdx_val_of_single rfl i q
/-- the right operand's on its contracted axis the contraction position … -/
theorem rhs_contr (i : S32x1024.Idx) (q : dot_S32x512_S512x1024_S32x1024_1_0_0_1_n_n.contr.Idx) : (dot_S32x512_S512x1024_S32x1024_1_0_0_1_n_n.rhsIdx i q 0).val = (q ⟨0, by decide⟩).val :=
  dot_S32x512_S512x1024_S32x1024_1_0_0_1_n_n.rhsIdx_val_of_single rfl i q
/-- … and on its column axis the result's column. -/
theorem rhs_col (i : S32x1024.Idx) (q : dot_S32x512_S512x1024_S32x1024_1_0_0_1_n_n.contr.Idx) : (dot_S32x512_S512x1024_S32x1024_1_0_0_1_n_n.rhsIdx i q 1).val = (i 1).val := by
  unfold DotDims.rhsIdx
  rw [dif_neg (show ¬(1 : Fin S512x1024.rank) ∈ dot_S32x512_S512x1024_S32x1024_1_0_0_1_n_n.rhsBatch by decide), dif_pos (show (1 : Fin S512x1024.rank) ∈ dot_S32x512_S512x1024_S32x1024_1_0_0_1_n_n.rhsNonContracting by decide)]
  rfl

/-- A block's projection at (p, k): row `p` of the block against column `k` of the weights' half, a sum over the 512
    features; the operands' narrowing to bf16 and the casts that drop the block's unit axis change no value. -/
theorem proj_apply (x : FVec Ideal S1x32x512 .f32) (w : FVec Ideal S512x1024 .bf16)
    (h1 : S1x32x512.ShapeCasts S32x512) (h2 : FTy.bits .bf16 < FTy.bits .f32) (h3 : S512x1024.ShapeCasts S512x1024)
    (p : Fin 32) (k : Fin 1024) :
    matmul dot_S32x512_S512x1024_S32x1024_1_0_0_1_n_n none (truncf .bf16 (shapeCast S32x512 x h1) h2) (shapeCast S512x1024 w h3)
        (constant (F := Ideal) S32x1024 .f32 0x00000000#32) (ix2 p k)
      = ∑ d : Fin 512, x (ix3 (0 : Fin 1) p d) * w (ix2 d k) := by
  refine (Ideal.matmul_constant_zero_apply dot_S32x512_S512x1024_S32x1024_1_0_0_1_n_n none _ _ (ix2 p k)).trans ?_
  rw [← Equiv.sum_comp (contrEquiv1 dot_S32x512_S512x1024_S32x1024_1_0_0_1_n_n 512 rfl rfl).symm]
  refine Finset.sum_congr rfl fun d _ => ?_
  have hd := contrEquiv1_symm_val dot_S32x512_S512x1024_S32x1024_1_0_0_1_n_n 512 rfl rfl d
  have el : dot_S32x512_S512x1024_S32x1024_1_0_0_1_n_n.lhsIdx (ix2 p k) ((contrEquiv1 dot_S32x512_S512x1024_S32x1024_1_0_0_1_n_n 512 rfl rfl).symm d) = ix2 p d := funext fun a => Fin.ext (by
    match a with
    | ⟨0, _⟩ => exact lhs_row _ _
    | ⟨1, _⟩ => exact (lhs_contr _ _).trans hd)
  have er : dot_S32x512_S512x1024_S32x1024_1_0_0_1_n_n.rhsIdx (ix2 p k) ((contrEquiv1 dot_S32x512_S512x1024_S32x1024_1_0_0_1_n_n 512 rfl rfl).symm d) = ix2 d k := funext fun a => Fin.ext (by
    match a with
    | ⟨0, _⟩ => exact (rhs_contr _ _).trans hd
    | ⟨1, _⟩ => exact rhs_col _ _)
  rw [el, er, truncf_apply, shapeCast_1ab_ab_apply, shapeCast_self]

/-! ## The block of logits -/

/-- The row of logits of encoder step `p` and decoder step `q` of the blocks, the bias added to the decoder's product. -/
def blockRow (x0 x1 : FVec Ideal S1x32x512 .f32) (x2 x3 : FVec Ideal S512x1024 .bf16) (x4 : FVec Ideal S1x1024 .f32)
    (p q : Fin 32) : Fin 1024 → EReal :=
  fun k => (∑ d : Fin 512, x0 (ix3 (0 : Fin 1) p d) * x2 (ix2 d k))
    + ((∑ d : Fin 512, x1 (ix3 (0 : Fin 1) q d) * x3 (ix2 d k)) + x4 (ix2 (0 : Fin 1) k))

/-- The [32, 32, 1024] block of logits the body forms, at (p, q, k). -/
theorem logitsBlock_apply (x0 x1 : FVec Ideal S1x32x512 .f32) (x2 x3 : FVec Ideal S512x1024 .bf16) (x4 : FVec Ideal S1x1024 .f32)
    (h1 : S1x32x512.ShapeCasts S32x512) (h2 : FTy.bits .bf16 < FTy.bits .f32) (h3 : S512x1024.ShapeCasts S512x1024)
    (h4 : S1x1024.ShapeCasts S1x1024) (h5 : S1x1024.Broadcasts S32x1024)
    (h6 : S32x1024.ShapeCasts S32x1x1024) (h7 : S32x1024.ShapeCasts S1x32x1024)
    (h8 : S32x1x1024.Broadcasts S32x32x1024) (h9 : S1x32x1024.Broadcasts S32x32x1024)
    (p q : Fin 32) (k : Fin 1024) :
    addf
      (broadcastTo S32x32x1024 (shapeCast S32x1x1024
        (matmul dot_S32x512_S512x1024_S32x1024_1_0_0_1_n_n none (truncf .bf16 (shapeCast S32x512 x0 h1) h2) (shapeCast S512x1024 x2 h3) (constant (F := Ideal) S32x1024 .f32 0x00000000#32)) h6) h8)
      (broadcastTo S32x32x1024 (shapeCast S1x32x1024
        (addf (matmul dot_S32x512_S512x1024_S32x1024_1_0_0_1_n_n none (truncf .bf16 (shapeCast S32x512 x1 h1) h2) (shapeCast S512x1024 x3 h3) (constant (F := Ideal) S32x1024 .f32 0x00000000#32))
          (broadcastTo S32x1024 (shapeCast S1x1024 x4 h4) h5)) h7) h9)
      (ix3 p q k)
      = blockRow x0 x1 x2 x3 x4 p q k := by
  rw [addf_apply, broadcastTo_a1c_abc_apply, shapeCast_ac_a1c_apply, proj_apply, broadcastTo_1bc_abc_apply,
    shapeCast_ab_1ab_apply, addf_apply, proj_apply, broadcastTo_1b_ab_apply, shapeCast_self]
  rfl

/-! ## The two reductions over the last axis of a [32, 32, 1024] block -/

/-- The index of row (p, q) with `k` put on the reduced axis is (p, q, k). -/
theorem lift_row (hr : S32x32x1024.Reduces [2] S32x32) (p q : Fin 32) (k : Fin 1024) : hr.lift (ix2 p q) k = ix3 p q k :=
  funext fun a => Fin.ext (by match a with | ⟨0, _⟩ => rfl | ⟨1, _⟩ => rfl | ⟨2, _⟩ => rfl)

/-- The maximum over the last axis from the −∞ word, at (p, q): the fold of `max` over the row from −∞. -/
theorem rowMax_apply (L : FVec Ideal S32x32x1024 .f32) (hr : S32x32x1024.Reduces [2] S32x32) (hφ : FKind.Formats .f32)
    (hacc : (0xFF800000#32 : BitVec 32) = FKind.maximumf.neutral .f32 hφ) (p q : Fin 32) :
    multiReduction .maximumf [2] S32x32 L 0xFF800000#32 hr hφ hacc (ix2 p q) = rowMax (fun k => L (ix3 p q k)) := by
  refine (Ideal.multiReduction_maximumf_single L _ hr hφ hacc (ix2 p q)).trans ?_
  unfold rowMax
  exact congrArg (fun f => Finset.fold max (Ideal.ofBits .f32 0xFF800000#32) f Finset.univ)
    (funext fun k => congrArg L (lift_row hr p q k))

/-- The sum over the last axis from the zero word, at (p, q): the row's sum. -/
theorem rowSum_apply (E : FVec Ideal S32x32x1024 .f32) (hr : S32x32x1024.Reduces [2] S32x32) (hφ : FKind.Formats .f32)
    (hacc : (0x00000000#32 : BitVec 32) = FKind.add.neutral .f32 hφ) (p q : Fin 32) :
    multiReduction .add [2] S32x32 E 0x00000000#32 hr hφ hacc (ix2 p q) = ∑ k : Fin 1024, E (ix3 p q k) := by
  refine (Ideal.multiReduction_add_single E _ hr hφ hacc (ix2 p q)).trans ?_
  exact Finset.sum_congr rfl fun k _ => congrArg E (lift_row hr p q k)

/-! ## The log-softmax over the last axis of a block, as the body spells it -/

/-- The body's tail applied to ANY [32, 32, 1024] block `L`, read at (p, q, v) of the stored [1, 32, 32, 1024] block: the
    log-softmax of `L`'s row (p, q) at `v`. -/
theorem softmaxTail_apply (L : FVec Ideal S32x32x1024 .f32) (hr : S32x32x1024.Reduces [2] S32x32) (hφ : FKind.Formats .f32)
    (hmax : (0xFF800000#32 : BitVec 32) = FKind.maximumf.neutral .f32 hφ)
    (hadd : (0x00000000#32 : BitVec 32) = FKind.add.neutral .f32 hφ)
    (hc : S32x32.ShapeCasts S32x32x1) (hb : S32x32x1.Broadcasts S32x32x1024) (ho : S32x32x1024.ShapeCasts S1x32x32x1024)
    (u : Fin 1) (p q : Fin 32) (v : Fin 1024) :
    shapeCast S1x32x32x1024
      (subf
        (subf L (broadcastTo S32x32x1024 (shapeCast S32x32x1 (multiReduction .maximumf [2] S32x32 L 0xFF800000#32 hr hφ hmax) hc) hb))
        (broadcastTo S32x32x1024
          (log (shapeCast S32x32x1
            (multiReduction .add [2] S32x32
              (exp (subf L (broadcastTo S32x32x1024 (shapeCast S32x32x1 (multiReduction .maximumf [2] S32x32 L 0xFF800000#32 hr hφ hmax) hc) hb)))
              0x00000000#32 hr hφ hadd) hc)) hb))
      ho (ix4 u p q v)
      = logSoftmaxRow (fun k => L (ix3 p q k)) v := by
  have hshift : ∀ k : Fin 1024,
      subf L (broadcastTo S32x32x1024 (shapeCast S32x32x1 (multiReduction .maximumf [2] S32x32 L 0xFF800000#32 hr hφ hmax) hc) hb) (ix3 p q k)
        = L (ix3 p q k) - rowMax (fun j => L (ix3 p q j)) := fun k => by
    rw [subf_apply, broadcastTo_ab1_abc_apply, shapeCast_ab_ab1_apply, rowMax_apply]
  rw [shapeCast_abc_1abc_apply, subf_apply, hshift v, broadcastTo_ab1_abc_apply]
  unfold logSoftmaxRow
  refine congrArg (fun z : EReal => L (ix3 p q v) - rowMax (fun k => L (ix3 p q k)) - z) ?_
  show Ideal.log (shapeCast S32x32x1 _ hc (ix3 p q (0 : Fin 1))) = _
  rw [shapeCast_ab_ab1_apply, rowSum_apply]
  refine congrArg Ideal.log (Finset.sum_congr rfl fun k _ => ?_)
  show Ideal.exp (subf L _ (ix3 p q k)) = _
  rw [hshift k]

/-! ## The payload -/

/-- THE BODY'S STORED BLOCK AT AN INDEX: at (u, p, q, v), the log-softmax at `v` of the row of logits of encoder step `p`
    and decoder step `q` of the point's blocks. -/
theorem pay_apply (x0 x1 : FVec Ideal S1x32x512 .f32) (x2 x3 : FVec Ideal S512x1024 .bf16) (x4 : FVec Ideal S1x1024 .f32)
    (u : Fin 1) (p q : Fin 32) (v : Fin 1024) :
    k0_pay1 (F := Ideal) x0 x1 x2 x3 x4 (ix4 u p q v) = logSoftmaxRow (blockRow x0 x1 x2 x3 x4 p q) v := by
  unfold k0_pay1
  refine (softmaxTail_apply _ _ _ _ _ _ _ _ u p q v).trans ?_
  exact congrArg (fun r => logSoftmaxRow r v)
    (funext fun k => logitsBlock_apply x0 x1 x2 x3 x4 _ _ _ _ _ _ _ _ _ p q k)

end Cert.KernelIdeal.Block

end
-- ==== Proof.KernelWindows.lean ====
/-
  The five input blocks a grid point works on, as entries of the four argument arrays.

  Before the region the program slices the [1024, 1024] weight matrix into its first and second 512 columns, transposes
  each half and narrows it to bf16, and sets the bias as one row [1, 1024]; the region's windows 2, 3 and 4 stage those
  three arrays whole at every point, windows 0 and 1 a [1, 32, 512] block of the encoder's and of the decoder's output.
  Read at coordinates:
    • the first half at (d, k) is the weights at (k, d), the second at (k, 512 + d) — a transpose reads the mirrored
      index, a column slice shifts it, the narrowing changes no value (`wenc_apply`, `wdec_apply`);
    • the bias row at (0, k) is the bias at k (`biasRow_apply`);
    • a point's block of the encoder's (decoder's) output at (0, p, d) is the array at the block's position: on each axis
      the block index times the block's extent plus the coordinate inside the block (`encBlock_apply`, `decBlock_apply`);
      the three whole-array windows have block index 0 on both axes (`wencBlock_apply` …).
-/
import proofs.«137516_j14903536517746_2_alg».proof.Proof.Gen.KernelIdeal.Frame
import proofs.«137516_j14903536517746_2_alg».proof.Proof.RowLogSoftmax
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Windows

open Cert.KernelIdeal Cert.KernelIdeal.Gen Idealize.ShloMosaic Idealize.ShloMosaic.TcCoe Idealize.SL.Sem
open Idealize.ShloMosaic.StableHlo Idealize.ShloMosaic.ValueIdx Cert.JointLogSoftmax

variable (m : (ℓ : Loc nD τ sig) → Buf (Elt Ideal) ℓ)

/-! ## The three arrays the host prefix writes -/

/-- The first half of the weights as the region finds it: sliced, transposed, narrowed. -/
theorem V_wenc (c : Dev nD) : (V m c main_v3 : S512x1024.Idx → EReal)
    = truncf (F := Ideal) .bf16 (transpose S512x1024 [1, 0]
        (extractStridedSlice S1024x512 ![0, 0] (m ((c : Thread nD τ).loc main_arg2) : FVec Ideal S1024x1024 .f32) slices_S1024x1024_S1024x512_0_0)
        transposes_S1024x512_S512x1024_1_0) bitsLt_bf16_f32 := by
  dsimp only [V, hostOps0]; after_results

/-- The second half likewise, from column 512 on. -/
theorem V_wdec (c : Dev nD) : (V m c main_v5 : S512x1024.Idx → EReal)
    = truncf (F := Ideal) .bf16 (transpose S512x1024 [1, 0]
        (extractStridedSlice S1024x512 ![0, 512] (m ((c : Thread nD τ).loc main_arg2) : FVec Ideal S1024x1024 .f32) slices_S1024x1024_S1024x512_0_512)
        transposes_S1024x512_S512x1024_1_0) bitsLt_bf16_f32 := by
  dsimp only [V, hostOps0]; after_results

/-- The bias as one row. -/
theorem V_biasRow (c : Dev nD) : (V m c main_v6 : S1x1024.Idx → EReal)
    = shapeCast S1x1024 (m ((c : Thread nD τ).loc main_arg3) : S1024.Idx → EReal) shapeCasts_S1024_S1x1024 := by
  dsimp only [V, hostOps0]; after_results; rfl

/-- The first half at (d, k): the weights at row `k`, column `d`. -/
theorem wenc_apply (c : Dev nD) (d : Fin 512) (k : Fin 1024) :
    (V m c main_v3 : S512x1024.Idx → EReal) (ix2 d k)
      = (m ((c : Thread nD τ).loc main_arg2) : S1024x1024.Idx → EReal) (ix2 k (colEnc d)) := by
  rw [V_wenc, truncf_apply, transpose_ix2_apply, slice2_axis1_eq]
  exact congrArg (fun z : Fin 1024 => (m ((c : Thread nD τ).loc main_arg2) : S1024x1024.Idx → EReal) (ix2 k z))
    (Fin.ext (Nat.zero_add _))

/-- The second half at (d, k): the weights at row `k`, column `512 + d`. -/
theorem wdec_apply (c : Dev nD) (d : Fin 512) (k : Fin 1024) :
    (V m c main_v5 : S512x1024.Idx → EReal) (ix2 d k)
      = (m ((c : Thread nD τ).loc main_arg2) : S1024x1024.Idx → EReal) (ix2 k (colDec d)) := by
  rw [V_wdec, truncf_apply, transpose_ix2_apply, slice2_axis1_eq]

/-- The bias row at (0, k): the bias at `k`. -/
theorem biasRow_apply (c : Dev nD) (u : Fin 1) (k : Fin 1024) :
    (V m c main_v6 : S1x1024.Idx → EReal) (ix2 u k) = (m ((c : Thread nD τ).loc main_arg3) : S1024.Idx → EReal) (ix1 k) := by
  rw [V_biasRow, shapeCast_a_1a_apply]

/-! ## The windows' blocks at a point -/

/-- Window 0's block at point `t`, at (0, p, d): the encoder's output at the block's batch entry, at encoder step
    `32·(block index) + p`, feature `d`. -/
theorem encBlock_apply (c : Dev nD) (t : Fin cfg0.N) (p : Fin 32) (d : Fin 512) (k : S4x256x512.Idx)
    (hk0 : (k 0).val = win0_0.index t 0) (hk1 : (k 1).val = win0_0.index t 1 * 32 + p.val)
    (hk2 : (k 2).val = win0_0.index t 2 * 512 + d.val) :
    (iblk m c 0 t : FVec Ideal S1x32x512 .f32) (ix3 (0 : Fin 1) p d)
      = (m ((c : Thread nD τ).loc main_arg0) : S4x256x512.Idx → EReal) k := by
  unfold iblk
  rw [View.read_apply]
  show V m c main_arg0 _ = _
  rw [V_main_arg0]
  congr 1
  funext a
  apply Fin.ext
  match a with
  | ⟨0, _⟩ => show win0_0.index t 0 * 1 + 1 * 0 = (k 0).val; omega
  | ⟨1, _⟩ => show win0_0.index t 1 * 32 + 1 * p.val = (k 1).val; omega
  | ⟨2, _⟩ => show win0_0.index t 2 * 512 + 1 * d.val = (k 2).val; omega

/-- Window 1's block at point `t`, at (0, q, d): the decoder's output at decoder step `32·(block index) + q`. -/
theorem decBlock_apply (c : Dev nD) (t : Fin cfg0.N) (q : Fin 32) (d : Fin 512) (k : S4x64x512.Idx)
    (hk0 : (k 0).val = win0_1.index t 0) (hk1 : (k 1).val = win0_1.index t 1 * 32 + q.val)
    (hk2 : (k 2).val = win0_1.index t 2 * 512 + d.val) :
    (iblk m c 1 t : FVec Ideal S1x32x512 .f32) (ix3 (0 : Fin 1) q d)
      = (m ((c : Thread nD τ).loc main_arg1) : S4x64x512.Idx → EReal) k := by
  unfold iblk
  rw [View.read_apply]
  show V m c main_arg1 _ = _
  rw [V_main_arg1]
  congr 1
  funext a
  apply Fin.ext
  match a with
  | ⟨0, _⟩ => show win0_1.index t 0 * 1 + 1 * 0 = (k 0).val; omega
  | ⟨1, _⟩ => show win0_1.index t 1 * 32 + 1 * q.val = (k 1).val; omega
  | ⟨2, _⟩ => show win0_1.index t 2 * 512 + 1 * d.val = (k 2).val; omega

/-- Window 2's block is the whole first half at every point. -/
theorem wencBlock_apply (c : Dev nD) (t : Fin cfg0.N) (d : Fin 512) (k : Fin 1024) :
    (iblk m c 2 t : FVec Ideal S512x1024 .bf16) (ix2 d k)
      = (m ((c : Thread nD τ).loc main_arg2) : S1024x1024.Idx → EReal) (ix2 k (colEnc d)) := by
  refine Eq.trans ?_ (wenc_apply m c d k)
  unfold iblk
  rw [View.read_apply]
  show V m c main_v3 _ = V m c main_v3 _
  congr 1
  funext a
  apply Fin.ext
  match a with
  | ⟨0, _⟩ => show 0 * 512 + 1 * d.val = d.val; omega
  | ⟨1, _⟩ => show 0 * 1024 + 1 * k.val = k.val; omega

/-- Window 3's block is the whole second half at every point. -/
theorem wdecBlock_apply (c : Dev nD) (t : Fin cfg0.N) (d : Fin 512) (k : Fin 1024) :
    (iblk m c 3 t : FVec Ideal S512x1024 .bf16) (ix2 d k)
      = (m ((c : Thread nD τ).loc main_arg2) : S1024x1024.Idx → EReal) (ix2 k (colDec d)) := by
  refine Eq.trans ?_ (wdec_apply m c d k)
  unfold iblk
  rw [View.read_apply]
  show V m c main_v5 _ = V m c main_v5 _
  congr 1
  funext a
  apply Fin.ext
  match a with
  | ⟨0, _⟩ => show 0 * 512 + 1 * d.val = d.val; omega
  | ⟨1, _⟩ => show 0 * 1024 + 1 * k.val = k.val; omega

/-- Window 4's block is the bias row at every point. -/
theorem biasBlock_apply (c : Dev nD) (t : Fin cfg0.N) (k : Fin 1024) :
    (iblk m c 4 t : FVec Ideal S1x1024 .f32) (ix2 (0 : Fin 1) k)
      = (m ((c : Thread nD τ).loc main_arg3) : S1024.Idx → EReal) (ix1 k) := by
  refine Eq.trans ?_ (biasRow_apply m c (0 : Fin 1) k)
  unfold iblk
  rw [View.read_apply]
  show V m c main_v6 _ = V m c main_v6 _
  congr 1
  funext a
  apply Fin.ext
  match a with
  | ⟨0, _⟩ => show 0 * 1 + 1 * 0 = 0; omega
  | ⟨1, _⟩ => show 0 * 1024 + 1 * k.val = k.val; omega

end Cert.KernelIdeal.Windows

end
-- ==== Proof.KernelArray.lean ====
/-
  From the blocks to the array: after the kernel's run the result array is `G` of the four arguments, index by index.

  The grid has 4 × 8 × 2 points: a batch entry, a block of 32 encoder steps, a block of 32 decoder steps. At a point the
  encoder's window is at block (b, ti, 0), the decoder's at (b, ui, 0), the two halves of the weights and the bias row are
  whole, and the output's window is at block (b, ti, ui, 0) of the [4, 256, 64, 1024] result — these relations between the
  printed index maps are decided once over the 64 points (`idx_facts`), and every block position of the result is some
  point's (`idx_onto`).
  So at a point the stored block, at (0, p, q, v), is the log-softmax at `v` of the row of logits of encoder step
  `32·ti + p` and decoder step `32·ui + q` of batch entry `b` (`point_eq`: the body's payload over the point's blocks,
  each block entry rewritten as the argument array's), which is `G` at the array index under that block entry
  (`flushed_eq`). The 64 blocks cover the result array — the point covering (b, t, u, v) is the one at
  (b, t / 32, u / 32) — so the array ends holding `G` everywhere (`final`), and the run is the generated frame run with
  that said of its result (`run`).
-/
import proofs.«137516_j14903536517746_2_alg».proof.Proof.Gen.KernelIdeal.Value
import proofs.«137516_j14903536517746_2_alg».proof.Proof.KernelBlock
import proofs.«137516_j14903536517746_2_alg».proof.Proof.KernelWindows
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Value Cert.KernelIdeal.Block Cert.KernelIdeal.Windows
open Idealize.ShloMosaic.ValueIdx Cert.JointLogSoftmax

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The result array the kernel's run ends with: `G` of the four argument arrays as launched. -/
abbrev result (c : Dev nD) : S4x256x64x1024.Idx → EReal :=
  G (m ((c : Thread nD τ).loc main_arg0) : S4x256x512.Idx → EReal) (m ((c : Thread nD τ).loc main_arg1) : S4x64x512.Idx → EReal)
    (m ((c : Thread nD τ).loc main_arg2) : S1024x1024.Idx → EReal) (m ((c : Thread nD τ).loc main_arg3) : S1024.Idx → EReal)

/-- The printed index maps, decided over the grid: the encoder's window moves with the output's first two block
    coordinates, the decoder's with its first and third; the last block coordinate of each is 0; the output's block
    coordinates stay in their ranges. -/
theorem idx_facts : ∀ t : Fin cfg0.N,
    win0_0.index t (0 : Fin 3) = win0_5.index t (0 : Fin 4) ∧ win0_0.index t (1 : Fin 3) = win0_5.index t (1 : Fin 4)
    ∧ win0_0.index t (2 : Fin 3) = 0
    ∧ win0_1.index t (0 : Fin 3) = win0_5.index t (0 : Fin 4) ∧ win0_1.index t (1 : Fin 3) = win0_5.index t (2 : Fin 4)
    ∧ win0_1.index t (2 : Fin 3) = 0
    ∧ win0_5.index t (3 : Fin 4) = 0
    ∧ win0_5.index t (0 : Fin 4) ≤ 3 ∧ win0_5.index t (1 : Fin 4) ≤ 7 ∧ win0_5.index t (2 : Fin 4) ≤ 1 :=
  (by decide +kernel : ∀ t : Fin grid0.N, _)

/-- Every block position of the result is SOME point's. -/
theorem idx_onto : ∀ (q0 : Fin 4) (q1 : Fin 8) (q2 : Fin 2), ∃ t : Fin cfg0.N, win0_5.index t = ![q0.val, q1.val, q2.val, 0] :=
  (by decide +kernel : ∀ (q0 : Fin 4) (q1 : Fin 8) (q2 : Fin 2), ∃ t : Fin grid0.N, win0_5.index t = ![q0.val, q1.val, q2.val, 0])

/-- ONE POINT, over variables: if the five blocks are the argument arrays' entries at block position (B, T, U) — the
    encoder's block rows `32·T + p`, the decoder's `32·U + q`, the weights' halves and the bias whole — then the body's
    payload at (u, p, q, v) is `G` at (B, 32·T + p, 32·U + q, v). -/
theorem point_eq (enc : S4x256x512.Idx → EReal) (dec : S4x64x512.Idx → EReal) (W : S1024x1024.Idx → EReal) (bias : S1024.Idx → EReal)
    (x0 x1 : FVec Ideal S1x32x512 .f32) (x2 x3 : FVec Ideal S512x1024 .bf16) (x4 : FVec Ideal S1x1024 .f32)
    (B T U : Nat) (hB : B < 4) (hT : T < 8) (hU : U < 2)
    (h0 : ∀ (p : Fin 32) (d : Fin 512), x0 (ix3 (0 : Fin 1) p d) = enc (ix3 (⟨B, hB⟩ : Fin 4) (⟨T * 32 + p.val, by have := p.isLt; omega⟩ : Fin 256) d))
    (h1 : ∀ (q : Fin 32) (d : Fin 512), x1 (ix3 (0 : Fin 1) q d) = dec (ix3 (⟨B, hB⟩ : Fin 4) (⟨U * 32 + q.val, by have := q.isLt; omega⟩ : Fin 64) d))
    (h2 : ∀ (d : Fin 512) (k : Fin 1024), x2 (ix2 d k) = W (ix2 k (colEnc d)))
    (h3 : ∀ (d : Fin 512) (k : Fin 1024), x3 (ix2 d k) = W (ix2 k (colDec d)))
    (h4 : ∀ k : Fin 1024, x4 (ix2 (0 : Fin 1) k) = bias (ix1 k))
    (u : Fin 1) (p q : Fin 32) (v : Fin 1024) :
    k0_pay1 (F := Ideal) x0 x1 x2 x3 x4 (ix4 u p q v)
      = G enc dec W bias (ix4 (⟨B, hB⟩ : Fin 4) (⟨T * 32 + p.val, by have := p.isLt; omega⟩ : Fin 256)
          (⟨U * 32 + q.val, by have := q.isLt; omega⟩ : Fin 64) v) := by
  rw [pay_apply, G_ix4]
  refine congrArg (fun r => logSoftmaxRow r v) (funext fun k => ?_)
  unfold blockRow logits encProj decProj
  simp only [h0, h1, h2, h3, h4]

/-- WHAT POINT `t` WRITES BACK is block `t` of `G` of the argument arrays. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz4]
  simp only [View.ld_unit_zero (S := S1x32x512) hz3, View.ld_unit_zero (S := S512x1024) hz2, View.ld_unit_zero (S := S1x1024) hz2]
  obtain ⟨e00, e01, e02, e10, e11, e12, e53, b0, b1, b2⟩ := idx_facts t
  have key : ∀ (u : Fin 1) (p q : Fin 32) (v : Fin 1024),
      k0_pay1 (F := Ideal) (iblk m c 0 t) (iblk m c 1 t) (iblk m c 2 t) (iblk m c 3 t) (iblk m c 4 t) (ix4 u p q v)
        = result m c (((cfg0.win 5).blk t).view.emb (ix4 u p q v)) := fun u p q v => by
    refine (point_eq (m ((c : Thread nD τ).loc main_arg0)) (m ((c : Thread nD τ).loc main_arg1))
      (m ((c : Thread nD τ).loc main_arg2)) (m ((c : Thread nD τ).loc main_arg3))
      (iblk m c 0 t) (iblk m c 1 t) (iblk m c 2 t) (iblk m c 3 t) (iblk m c 4 t)
      (win0_5.index t (0 : Fin 4)) (win0_5.index t (1 : Fin 4)) (win0_5.index t (2 : Fin 4)) (by omega) (by omega) (by omega)
      (fun p d => encBlock_apply m c t p d _ (by show win0_5.index t (0 : Fin 4) = win0_0.index t (0 : Fin 3); omega)
        (by show win0_5.index t (1 : Fin 4) * 32 + p.val = win0_0.index t (1 : Fin 3) * 32 + p.val; omega)
        (by show d.val = win0_0.index t (2 : Fin 3) * 512 + d.val; omega))
      (fun q d => decBlock_apply m c t q d _ (by show win0_5.index t (0 : Fin 4) = win0_1.index t (0 : Fin 3); omega)
        (by show win0_5.index t (2 : Fin 4) * 32 + q.val = win0_1.index t (1 : Fin 3) * 32 + q.val; omega)
        (by show d.val = win0_1.index t (2 : Fin 3) * 512 + d.val; omega))
      (fun d k => wencBlock_apply m c t d k) (fun d k => wdecBlock_apply m c t d k) (fun k => biasBlock_apply m c t k)
      u p q v).trans ?_
    refine congrArg (result m c) (funext fun a => Fin.ext ?_)
    have hu : u.val = 0 := by have := u.isLt; omega
    match a with
    | ⟨0, _⟩ => show win0_5.index t (0 : Fin 4) = win0_5.index t (0 : Fin 4) * 1 + 1 * u.val; omega
    | ⟨1, _⟩ => show win0_5.index t (1 : Fin 4) * 32 + p.val = win0_5.index t (1 : Fin 4) * 32 + 1 * p.val; omega
    | ⟨2, _⟩ => show win0_5.index t (2 : Fin 4) * 32 + q.val = win0_5.index t (2 : Fin 4) * 32 + 1 * q.val; omega
    | ⟨3, _⟩ => show v.val = win0_5.index t (3 : Fin 4) * 1024 + 1 * v.val; omega
  funext j
  have hj : j = ix4 (j 0) (j 1) (j 2) (j 3) := funext fun a => by
    match a with | ⟨0, _⟩ => rfl | ⟨1, _⟩ => rfl | ⟨2, _⟩ => rfl | ⟨3, _⟩ => rfl
  rw [hj]
  exact key (j 0) (j 1) (j 2) (j 3)

/-- An index of the result is in point `t`'s block iff each coordinate is in the block's range on its axis. -/
theorem mem_blk (t : Fin cfg0.N) (i : S4x256x64x1024.Idx) :
    i ∈ ((cfg0.win 5).blk t).view.set ↔ ∀ a : Fin 4, win0_5.index t a * S1x32x32x1024.size a ≤ (i a).val
      ∧ (i a).val < win0_5.index t a * S1x32x32x1024.size a + S1x32x32x1024.size a := by
  show i ∈ ((View.whole main_v7).slice (win0_5.rect t)).set ↔ _
  rw [View.set_slice_whole, Rect.mem_set_unit]
  exact Iff.rfl

/-- THE BLOCKS COVER THE RESULT: (b, t, u, v) is in the block of the point at block position (b, t / 32, u / 32). -/
theorem cover (i : S4x256x64x1024.Idx) : ∃ t : Fin cfg0.N, (cfg0.win 5).flush t = true ∧ i ∈ ((cfg0.win 5).blk t).view.set := by
  have hi0 : (i 0).val < 4 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, hi0⟩ ⟨(i 1).val / 32, by omega⟩ ⟨(i 2).val / 32, by omega⟩
  have q0 : win0_5.index t (0 : Fin 4) = (i 0).val := congrFun ht 0
  have q1 : win0_5.index t (1 : Fin 4) = (i 1).val / 32 := congrFun ht 1
  have q2 : win0_5.index t (2 : Fin 4) = (i 2).val / 32 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 32 ≤ (i 1).val ∧ (i 1).val < win0_5.index t (1 : Fin 4) * 32 + 32; omega
  | ⟨2, _⟩ => show win0_5.index t (2 : Fin 4) * 32 ≤ (i 2).val ∧ (i 2).val < win0_5.index t (2 : Fin 4) * 32 + 32; omega
  | ⟨3, _⟩ => show win0_5.index t (3 : Fin 4) * 1024 ≤ (i 3).val ∧ (i 3).val < win0_5.index t (3 : Fin 4) * 1024 + 1024; omega

/-- THE ARRAY after the run: `G` of the argument arrays, everywhere. -/
theorem final (c : Dev nD) : (dats m 0 c).arrAt 5 cfg0.N = result m c :=
  (dats m 0 c).arrAt_eq_of_cover 5 (result m c) (fun t _ => flushed_eq m c t) cover

/-- THE KERNEL'S RUN: the generated frame run, with the result array at `G` of the arguments and the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Array

end
-- ==== Proof.HostTail.lean ====
/-
  The reference's log-softmax as ONE function of the array of logits, and that function read at an index.

  After the logits `L` (a [4, 256, 64, 1024] array) the reference runs fifteen operations, all of them jax's
  `log_softmax` over the last axis: the row maximum from −∞ (a reduce, then once more a `maximum` against a splat of −∞),
  kept as a unit axis and spread back over the row; the shift `S = L − M`; `exp`; the row sum from 0, kept and spread;
  `log`; and `S − log Σ exp S`. `hostShift` (the first eight operations), `hostLse` (the last seven, as a function of the
  shifted logits) and their composite `hostLogSoftmax` are those operations as the program prints them, at any float
  instance.

  Read at (b, t, u, v) at the ideal instance, `hostLogSoftmax L` is `logSoftmaxRow` of the row `k ↦ L (b, t, u, k)` at
  `v`: the reduce is the fold of `max` over the row from −∞, the second `maximum` against −∞ changes nothing, the sum
  from the zero word is the row's sum, and a kept-and-spread value is read back where it was computed.
-/
import proofs.«137516_j14903536517746_2_alg».proof.Proof.Gen.ReferenceIdeal
import proofs.«137516_j14903536517746_2_alg».proof.Proof.RowLogSoftmax
import Idealize.ShloMosaic.Lib.Pipeline.Value
import Idealize.ShloMosaic.Lib.ValueIdx
import Idealize.ShloMosaic.PureOps.Ideal.Laws

noncomputable section

open scoped BigOperators

namespace Cert.ReferenceIdeal.HostTail

open Cert.ReferenceIdeal Cert.ReferenceIdeal.Gen Idealize.ShloMosaic Idealize.ShloMosaic.ValueIdx Cert.JointLogSoftmax

section AnyInstance
variable {F : FTy → Type} [FloatOps F]

/-- The logits minus their row maximum, as the program computes it: the maximum reduced from −∞ over the last axis,
    taken once more against −∞, kept as a unit axis, spread over the row, and subtracted. -/
def hostShift (L : (⟨S4x256x64x1024, .f32⟩ : BufTy).Contents (Elt F)) : (⟨S4x256x64x1024, .f32⟩ : BufTy).Contents (Elt F) :=
  subf L (broadcastInDim S4x256x64x1024 ![0, 1, 2, 3] bcast_S4x256x64x1_S4x256x64x1024_0_1_2_3
    (broadcastInDim S4x256x64x1 ![0, 1, 2] bcast_S4x256x64_S4x256x64x1_0_1_2
      (maximumf (broadcastInDim S4x256x64 ![] bcast_S_S4x256x64 (constant S_ .f32 0xFF800000#32))
        (Host.reduce FloatOps.maximumf L (constant S_ .f32 0xFF800000#32) reducesTo_S4x256x64x1024_S4x256x64_d3 h_S_))))

/-- What the program does with the shifted logits `S`: `S` minus the logarithm of the row sum (from 0) of its
    exponentials, that logarithm kept as a unit axis and spread over the row. -/
def hostLse (S : (⟨S4x256x64x1024, .f32⟩ : BufTy).Contents (Elt F)) : (⟨S4x256x64x1024, .f32⟩ : BufTy).Contents (Elt F) :=
  subf S (broadcastInDim S4x256x64x1024 ![0, 1, 2, 3] bcast_S4x256x64x1_S4x256x64x1024_0_1_2_3
    (Host.log (broadcastInDim S4x256x64x1 ![0, 1, 2] bcast_S4x256x64_S4x256x64x1_0_1_2
      (Host.reduceAdd (Host.exp S) (constant S_ .f32 0x00000000#32) reducesTo_S4x256x64x1024_S4x256x64_d3 h_S_))))

/-- The log-softmax over the last axis, as the program computes it: the shift, then the rest. -/
def hostLogSoftmax (L : (⟨S4x256x64x1024, .f32⟩ : BufTy).Contents (Elt F)) : (⟨S4x256x64x1024, .f32⟩ : BufTy).Contents (Elt F) :=
  hostLse (hostShift L)

end AnyInstance

/-! ## The layouts: a value kept as a unit last axis, and spread back over the row -/

/-- A [4, 256, 64] array set as [4, 256, 64, 1] reads, at (b, t, u, z), the array at (b, t, u). -/
theorem keep_apply {α : Type} (c : S4x256x64.Idx → α) (b : Fin 4) (t : Fin 256) (u : Fin 64) (z : Fin 1) :
    broadcastInDim S4x256x64x1 ![0, 1, 2] bcast_S4x256x64_S4x256x64x1_0_1_2 c (ix4 b t u z) = c (ix3 b t u) :=
  broadcastInDim_apply _ bcast_S4x256x64_S4x256x64x1_0_1_2 c (ix4 b t u z) (ix3 b t u) (fun a => match a with
    | ⟨0, _⟩ => by show b.val = if (4 : Nat) = 1 then 0 else b.val; rw [if_neg (by decide)]
    | ⟨1, _⟩ => by show t.val = if (256 : Nat) = 1 then 0 else t.val; rw [if_neg (by decide)]
    | ⟨2, _⟩ => by show u.val = if (64 : Nat) = 1 then 0 else u.val; rw [if_neg (by decide)])

/-- A [4, 256, 64, 1] array spread to [4, 256, 64, 1024] reads, at (b, t, u, k), its one entry of the row (b, t, u). -/
theorem spread_apply {α : Type} (c : S4x256x64x1.Idx → α) (b : Fin 4) (t : Fin 256) (u : Fin 64) (k : Fin 1024) :
    broadcastInDim S4x256x64x1024 ![0, 1, 2, 3] bcast_S4x256x64x1_S4x256x64x1024_0_1_2_3 c (ix4 b t u k)
      = c (ix4 b t u (0 : Fin 1)) :=
  broadcastInDim_apply _ bcast_S4x256x64x1_S4x256x64x1024_0_1_2_3 c (ix4 b t u k) (ix4 b t u (0 : Fin 1)) (fun a => match a with
    | ⟨0, _⟩ => by show b.val = if (4 : Nat) = 1 then 0 else b.val; rw [if_neg (by decide)]
    | ⟨1, _⟩ => by show t.val = if (256 : Nat) = 1 then 0 else t.val; rw [if_neg (by decide)]
    | ⟨2, _⟩ => by show u.val = if (64 : Nat) = 1 then 0 else u.val; rw [if_neg (by decide)]
    | ⟨3, _⟩ => by show 0 = if (1 : Nat) = 1 then 0 else k.val; rw [if_pos rfl])

/-! ## The two reductions over the last axis -/

/-- The index of row (b, t, u) with `k` put on the reduced axis is (b, t, u, k). -/
theorem lift_row (hR : S4x256x64x1024.Reduces [3] S4x256x64) (b : Fin 4) (t : Fin 256) (u : Fin 64) (k : Fin 1024) :
    hR.lift (ix3 b t u) k = ix4 b t u k :=
  funext fun a => Fin.ext (by match a with | ⟨0, _⟩ => rfl | ⟨1, _⟩ => rfl | ⟨2, _⟩ => rfl | ⟨3, _⟩ => rfl)

/-- The reduce with a `maximum` body from the −∞ word, at row (b, t, u): the fold of `max` over the row from −∞. -/
theorem hostRowMax_apply (L : FVec Ideal S4x256x64x1024 .f32) (b : Fin 4) (t : Fin 256) (u : Fin 64) :
    Host.reduce FloatOps.maximumf L (constant (F := Ideal) S_ .f32 0xFF800000#32) reducesTo_S4x256x64x1024_S4x256x64_d3 h_S_ (ix3 b t u)
      = rowMax (fun k => L (ix4 b t u k)) := by
  have hR : S4x256x64x1024.Reduces [3] S4x256x64 := by decide
  refine (Host.reduce_eq_fold_single FloatOps.maximumf L _ reducesTo_S4x256x64x1024_S4x256x64_d3 hR h_S_ (ix3 b t u)).trans ?_
  unfold rowMax
  exact congrArg (fun f => Finset.fold max (Ideal.ofBits .f32 0xFF800000#32) f Finset.univ)
    (funext fun k => congrArg L (lift_row hR b t u k))

/-- The reduce with an `add` body from the zero word, at row (b, t, u): the row's sum. -/
theorem hostRowSum_apply (E : FVec Ideal S4x256x64x1024 .f32) (b : Fin 4) (t : Fin 256) (u : Fin 64) :
    Host.reduceAdd E (constant (F := Ideal) S_ .f32 0x00000000#32) reducesTo_S4x256x64x1024_S4x256x64_d3 h_S_ (ix3 b t u)
      = ∑ k : Fin 1024, E (ix4 b t u k) := by
  have hR : S4x256x64x1024.Reduces [3] S4x256x64 := by decide
  simp only [Host.reduceAdd, Ideal.hostReduceAdd_def]
  rw [Ideal.hostReduceAdd_single reducesTo_S4x256x64x1024_S4x256x64_d3 hR]
  show Ideal.ofBits .f32 0x00000000#32 + _ = _
  rw [Ideal.ofBits_zero_f32, zero_add]
  exact Finset.sum_congr rfl fun k _ => congrArg E (lift_row hR b t u k)

/-! ## The shift and the log-softmax at an index -/

/-- The host's logarithm and exponential at an index are the ideal instance's, element by element. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The shifted logits at (b, t, u, k): the logit minus its row's maximum. -/
theorem hostShift_apply (L : FVec Ideal S4x256x64x1024 .f32) (b : Fin 4) (t : Fin 256) (u : Fin 64) (k : Fin 1024) :
    hostShift (F := Ideal) L (ix4 b t u k) = L (ix4 b t u k) - rowMax (fun j => L (ix4 b t u j)) := by
  unfold hostShift
  rw [subf_apply, spread_apply, keep_apply, maximumf_apply, hostRowMax_apply]
  refine congrArg (L (ix4 b t u k) - ·) ?_
  refine (congrArg (max · _) ?_).trans (max_negInf _)
  exact broadcastInDim_apply _ bcast_S_S4x256x64 _ (ix3 b t u) ix0 (fun a => a.elim0)

/-- THE REFERENCE'S TAIL AT AN INDEX: the log-softmax of the row of logits (b, t, u), at `v`. -/
theorem hostLogSoftmax_apply (L : FVec Ideal S4x256x64x1024 .f32) (b : Fin 4) (t : Fin 256) (u : Fin 64) (v : Fin 1024) :
    hostLogSoftmax (F := Ideal) L (ix4 b t u v) = logSoftmaxRow (fun k => L (ix4 b t u k)) v := by
  unfold hostLogSoftmax hostLse logSoftmaxRow
  rw [subf_apply, hostShift_apply, spread_apply]
  refine congrArg (fun z : EReal => L (ix4 b t u v) - rowMax (fun k => L (ix4 b t u k)) - z) ?_
  rw [hostLog_apply, keep_apply, hostRowSum_apply]
  refine congrArg Ideal.log (Finset.sum_congr rfl fun k _ => ?_)
  rw [hostExp_apply, hostShift_apply]

end Cert.ReferenceIdeal.HostTail

end
-- ==== Proof.HostRun.lean ====
/-
  The reference's run, written out: its @main is a straight line of 27 host operations (the twelve that form the logits
  — two slices of the weights, the two products, the layouts that set them side by side, the two sums —, then the fifteen
  of jax's `log_softmax`, inlined where it is called). The library's `run_seq` says that every weakly fair execution of
  such a line terminates with each buffer at the fold of the operations' results over the launch contents; what is
  proved here is what that fold holds at the result buffer and at the four arguments.

  The fold is opened in THREE stretches, cut where a value is read more than once, with the contents a VARIABLE each
  time. The first stretch leaves, at the logits' buffer, the twelve operations' composed term of the arguments
  (`logits_eq`; the stage `val_main_v11`). The second, from ANY contents, leaves at the shifted logits' buffer
  `hostShift` of whatever the logits' buffer holds — the logits are read there by the maximum and by the subtraction
  (`shift_eq`). The third, from any contents, leaves at the result buffer `hostLse` of whatever the shifted logits'
  buffer holds — they are read by the exponential and by the last subtraction (`lse_eq`). Cut this way every shared
  value is one variable in the stretch that reads it, and no step sets two full-size terms side by side. The reduce with
  a `maximum` body is a fold over the array's indices at every instance and is kept folded while its equation is
  checked, which never looks inside it. No operation writes an argument (`keep_…`, stretch by stretch).

  The fifteen operations of the called function are stated over references that carry the type of the value they hold:
  a value is moved to the buffer's own type (the signature's table entry) when written and back when read, along the
  equation between the two types. Between two operations of one stretch the two moves cancel (`ofBuf_toBuf`, for any
  such reference); at the two ends of a stretch one move is left, and the stretch's equation is stated WITH it, so that
  both sides are the same term. At these literal references the table entry IS the value's type and each leftover move
  is the identity (`ofBuf_logits`, `toBuf_shifted`, …: one small equation per reference), which is how the three
  stretches join (`result_eq`).
-/
import proofs.«137516_j14903536517746_2_alg».proof.Proof.Gen.ReferenceIdeal
import proofs.«137516_j14903536517746_2_alg».proof.Proof.RefRead
import proofs.«137516_j14903536517746_2_alg».proof.Proof.HostTail
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo
open Cert.ReferenceIdeal.HostTail

variable {F : FTy → Type} [FloatOps F]

/-- The twelve operations that form the logits, in order. -/
abbrev opsLogits : List (HloOp τ sig (Elt F)) :=
  [ unary main_arg2 main_v0 ((extractStridedSlice S1024x512 ![0, 0] · slices_S1024x1024_S1024x512_0_0) : (⟨S1024x1024, .f32⟩ : BufTy).Contents (Elt F) → (⟨S1024x512, .f32⟩ : BufTy).Contents (Elt F)),
    unary main_arg2 main_v1 ((extractStridedSlice S1024x512 ![0, 512] · slices_S1024x1024_S1024x512_0_512) : (⟨S1024x1024, .f32⟩ : BufTy).Contents (Elt F) → (⟨S1024x512, .f32⟩ : BufTy).Contents (Elt F)),
    binary main_arg0 main_v0 main_v2 ((fun l r => Host.dotGeneral dot_S4x256x512_S1024x512_S4x256x1024_2_1_01_0_n_n none l r) : (⟨S4x256x512, .f32⟩ : BufTy).Contents (Elt F) → (⟨S1024x512, .f32⟩ : BufTy).Contents (Elt F) → (⟨S4x256x1024, .f32⟩ : BufTy).Contents (Elt F)),
    binary main_arg1 main_v1 main_v3 ((fun l r => Host.dotGeneral dot_S4x64x512_S1024x512_S4x64x1024_2_1_01_0_n_n none l r) : (⟨S4x64x512, .f32⟩ : BufTy).Contents (Elt F) → (⟨S1024x512, .f32⟩ : BufTy).Contents (Elt F) → (⟨S4x64x1024, .f32⟩ : BufTy).Contents (Elt F)),
    unary main_v2 main_v4 (broadcastInDim S4x256x1x1024 ![0, 1, 3] bcast_S4x256x1024_S4x256x1x1024_0_1_3 : (⟨S4x256x1024, .f32⟩ : BufTy).Contents (Elt F) → (⟨S4x256x1x1024, .f32⟩ : BufTy).Contents (Elt F)),
    unary main_v3 main_v5 (broadcastInDim S4x1x64x1024 ![0, 2, 3] bcast_S4x64x1024_S4x1x64x1024_0_2_3 : (⟨S4x64x1024, .f32⟩ : BufTy).Contents (Elt F) → (⟨S4x1x64x1024, .f32⟩ : BufTy).Contents (Elt F)),
    unary main_v4 main_v6 (broadcastInDim S4x256x64x1024 ![0, 1, 2, 3] bcast_S4x256x1x1024_S4x256x64x1024_0_1_2_3 : (⟨S4x256x1x1024, .f32⟩ : BufTy).Contents (Elt F) → (⟨S4x256x64x1024, .f32⟩ : BufTy).Contents (Elt F)),
    unary main_v5 main_v7 (broadcastInDim S4x256x64x1024 ![0, 1, 2, 3] bcast_S4x1x64x1024_S4x256x64x1024_0_1_2_3 : (⟨S4x1x64x1024, .f32⟩ : BufTy).Contents (Elt F) → (⟨S4x256x64x1024, .f32⟩ : BufTy).Contents (Elt F)),
    binary main_v6 main_v7 main_v8 (addf : (⟨S4x256x64x1024, .f32⟩ : BufTy).Contents (Elt F) → (⟨S4x256x64x1024, .f32⟩ : BufTy).Contents (Elt F) → (⟨S4x256x64x1024, .f32⟩ : BufTy).Contents (Elt F)),
    unary main_arg3 main_v9 (broadcastInDim S1x1x1x1024 ![3] bcast_S1024_S1x1x1x1024_3 : (⟨S1024, .f32⟩ : BufTy).Contents (Elt F) → (⟨S1x1x1x1024, .f32⟩ : BufTy).Contents (Elt F)),
    unary main_v9 main_v10 (broadcastInDim S4x256x64x1024 ![0, 1, 2, 3] bcast_S1x1x1x1024_S4x256x64x1024_0_1_2_3 : (⟨S1x1x1x1024, .f32⟩ : BufTy).Contents (Elt F) → (⟨S4x256x64x1024, .f32⟩ : BufTy).Contents (Elt F)),
    binary main_v8 main_v10 main_v11 (addf : (⟨S4x256x64x1024, .f32⟩ : BufTy).Contents (Elt F) → (⟨S4x256x64x1024, .f32⟩ : BufTy).Contents (Elt F) → (⟨S4x256x64x1024, .f32⟩ : BufTy).Contents (Elt F)) ]

/-- The first eight operations of `log_softmax`: the row maximum from −∞, kept and spread, and the shift. -/
abbrev opsShift : List (HloOp τ sig (Elt F)) :=
  [ TRef.nullary (TRef.of (T := ⟨S_, .f32⟩) main_call0_cst) (constant S_ .f32 0xFF800000#32),
    TRef.binary (TRef.of (T := ⟨S4x256x64x1024, .f32⟩) main_v11) (TRef.of (T := ⟨S_, .f32⟩) main_call0_cst) (TRef.of (T := ⟨S4x256x64, .f32⟩) main_call0_v0) (fun x v => Host.reduce FloatOps.maximumf x v reducesTo_S4x256x64x1024_S4x256x64_d3 h_S_),
    TRef.nullary (TRef.of (T := ⟨S_, .f32⟩) main_call0_cst_0) (constant S_ .f32 0xFF800000#32),
    TRef.unary (TRef.of (T := ⟨S_, .f32⟩) main_call0_cst_0) (TRef.of (T := ⟨S4x256x64, .f32⟩) main_call0_v1) (broadcastInDim S4x256x64 ![] bcast_S_S4x256x64),
    TRef.binary (TRef.of (T := ⟨S4x256x64, .f32⟩) main_call0_v1) (TRef.of (T := ⟨S4x256x64, .f32⟩) main_call0_v0) (TRef.of (T := ⟨S4x256x64, .f32⟩) main_call0_v2) maximumf,
    TRef.unary (TRef.of (T := ⟨S4x256x64, .f32⟩) main_call0_v2) (TRef.of (T := ⟨S4x256x64x1, .f32⟩) main_call0_v3) (broadcastInDim S4x256x64x1 ![0, 1, 2] bcast_S4x256x64_S4x256x64x1_0_1_2),
    TRef.unary (TRef.of (T := ⟨S4x256x64x1, .f32⟩) main_call0_v3) (TRef.of (T := ⟨S4x256x64x1024, .f32⟩) main_call0_v4) (broadcastInDim S4x256x64x1024 ![0, 1, 2, 3] bcast_S4x256x64x1_S4x256x64x1024_0_1_2_3),
    TRef.binary (TRef.of (T := ⟨S4x256x64x1024, .f32⟩) main_v11) (TRef.of (T := ⟨S4x256x64x1024, .f32⟩) main_call0_v4) (TRef.of (T := ⟨S4x256x64x1024, .f32⟩) main_call0_v5) subf ]

/-- Its last seven: the exponential, the row sum from 0, kept, its logarithm, spread, and the last subtraction. -/
abbrev opsLse : List (HloOp τ sig (Elt F)) :=
  [ TRef.unary (TRef.of (T := ⟨S4x256x64x1024, .f32⟩) main_call0_v5) (TRef.of (T := ⟨S4x256x64x1024, .f32⟩) main_call0_v6) Host.exp,
    TRef.nullary (TRef.of (T := ⟨S_, .f32⟩) main_call0_cst_1) (constant S_ .f32 0x00000000#32),
    TRef.binary (TRef.of (T := ⟨S4x256x64x1024, .f32⟩) main_call0_v6) (TRef.of (T := ⟨S_, .f32⟩) main_call0_cst_1) (TRef.of (T := ⟨S4x256x64, .f32⟩) main_call0_v7) (fun x v => Host.reduceAdd x v reducesTo_S4x256x64x1024_S4x256x64_d3 h_S_),
    TRef.unary (TRef.of (T := ⟨S4x256x64, .f32⟩) main_call0_v7) (TRef.of (T := ⟨S4x256x64x1, .f32⟩) main_call0_v8) (broadcastInDim S4x256x64x1 ![0, 1, 2] bcast_S4x256x64_S4x256x64x1_0_1_2),
    TRef.unary (TRef.of (T := ⟨S4x256x64x1, .f32⟩) main_call0_v8) (TRef.of (T := ⟨S4x256x64x1, .f32⟩) main_call0_v9) Host.log,
    TRef.unary (TRef.of (T := ⟨S4x256x64x1, .f32⟩) main_call0_v9) (TRef.of (T := ⟨S4x256x64x1024, .f32⟩) main_call0_v10) (broadcastInDim S4x256x64x1024 ![0, 1, 2, 3] bcast_S4x256x64x1_S4x256x64x1024_0_1_2_3),
    TRef.binary (TRef.of (T := ⟨S4x256x64x1024, .f32⟩) main_call0_v5) (TRef.of (T := ⟨S4x256x64x1024, .f32⟩) main_call0_v10) (TRef.of (T := ⟨S4x256x64x1024, .f32⟩) main_v12) subf ]

/-- @main's 27 operations: the three stretches, one after the other. -/
abbrev ops : List (HloOp τ sig (Elt F)) := opsLogits ++ (opsShift ++ opsLse)

/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., unary_bufs_sub .., binary_bufs_sub .., binary_bufs_sub .., unary_bufs_sub .., unary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Operations run one stretch after another: the second stretch starts from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- THE FIRST STRETCH: from any contents `V`, the logits' buffer ends at the twelve operations' composed term of the four
    arguments' contents. -/
theorem logits_eq (V : Valuation τ sig (Elt F)) :
    after opsLogits V (Proc.devRef .tc main_v11)
      = ReadP.val_main_v11 (F := F) (V (Proc.devRef .tc main_arg0)) (V (Proc.devRef .tc main_arg1))
          (V (Proc.devRef .tc main_arg2)) (V (Proc.devRef .tc main_arg3)) := by
  after_results
  rfl

/-- A value moved to a typed reference's buffer type and back is itself (the two moves are along one equation). -/
theorem ofBuf_toBuf {T : BufTy} (x : TRef sig T) (v : T.Contents (Elt F)) : x.ofBuf (x.toBuf v) = v := by
  obtain ⟨r, h, hd, hu⟩ := x
  subst h
  rfl

/-- At a literal reference whose table type IS the value's type the move is the identity. -/
theorem ofBuf_logits (v : main_v11.ty.Contents (Elt F)) : (TRef.of (T := ⟨S4x256x64x1024, .f32⟩) main_v11).ofBuf v = v := rfl
theorem toBuf_shifted (v : (⟨S4x256x64x1024, .f32⟩ : BufTy).Contents (Elt F)) : (TRef.of (T := ⟨S4x256x64x1024, .f32⟩) main_call0_v5).toBuf v = v := rfl
theorem ofBuf_shifted (v : main_call0_v5.ty.Contents (Elt F)) : (TRef.of (T := ⟨S4x256x64x1024, .f32⟩) main_call0_v5).ofBuf v = v := rfl
theorem toBuf_result (v : (⟨S4x256x64x1024, .f32⟩ : BufTy).Contents (Elt F)) : (TRef.of (T := ⟨S4x256x64x1024, .f32⟩) main_v12).toBuf v = v := rfl

attribute [local irreducible] Host.reduce in
/-- THE SECOND STRETCH: from any contents `W`, the shifted logits' buffer ends at the shift of what the logits' buffer holds
    (each read through its typed reference). -/
theorem shift_eq (W : Valuation τ sig (Elt F)) :
    after opsShift W (Proc.devRef .tc main_call0_v5)
      = (TRef.of (T := ⟨S4x256x64x1024, .f32⟩) main_call0_v5).toBuf (hostShift (F := F) ((TRef.of (T := ⟨S4x256x64x1024, .f32⟩) main_v11).ofBuf (W (Proc.devRef .tc main_v11)))) := by
  after_results
  simp only [ofBuf_toBuf]
  rfl

/-- THE THIRD STRETCH: from any contents `W`, the result buffer ends at `S − log Σ exp S` of what the shifted logits' buffer holds. -/
theorem lse_eq (W : Valuation τ sig (Elt F)) :
    after opsLse W (Proc.devRef .tc main_v12)
      = (TRef.of (T := ⟨S4x256x64x1024, .f32⟩) main_v12).toBuf (hostLse (F := F) ((TRef.of (T := ⟨S4x256x64x1024, .f32⟩) main_call0_v5).ofBuf (W (Proc.devRef .tc main_call0_v5)))) := by
  after_results
  simp only [ofBuf_toBuf]
  rfl

/-- The whole line at the result buffer: the log-softmax of the logits' term of the arguments. -/
theorem result_eq (V : Valuation τ sig (Elt F)) :
    after ops V (Proc.devRef .tc main_v12)
      = hostLogSoftmax (F := F) (ReadP.val_main_v11 (F := F) (V (Proc.devRef .tc main_arg0)) (V (Proc.devRef .tc main_arg1))
          (V (Proc.devRef .tc main_arg2)) (V (Proc.devRef .tc main_arg3))) := by
  rw [after_append, after_append, lse_eq, shift_eq, logits_eq, ofBuf_toBuf, toBuf_result, ofBuf_logits]
  rfl

/-! No operation writes an argument: stretch by stretch, then for the whole line. -/
theorem keepLogits_main_arg0 (V : Valuation τ sig (Elt F)) : after opsLogits V (Proc.devRef .tc main_arg0) = V (Proc.devRef .tc main_arg0) := by
  after_results <;> rfl
theorem keepLogits_main_arg1 (V : Valuation τ sig (Elt F)) : after opsLogits V (Proc.devRef .tc main_arg1) = V (Proc.devRef .tc main_arg1) := by
  after_results <;> rfl
theorem keepLogits_main_arg2 (V : Valuation τ sig (Elt F)) : after opsLogits V (Proc.devRef .tc main_arg2) = V (Proc.devRef .tc main_arg2) := by
  after_results <;> rfl
theorem keepLogits_main_arg3 (V : Valuation τ sig (Elt F)) : after opsLogits V (Proc.devRef .tc main_arg3) = V (Proc.devRef .tc main_arg3) := by
  after_results <;> rfl
theorem keepShift_main_arg0 (V : Valuation τ sig (Elt F)) : after opsShift V (Proc.devRef .tc main_arg0) = V (Proc.devRef .tc main_arg0) := by
  after_results <;> rfl
theorem keepShift_main_arg1 (V : Valuation τ sig (Elt F)) : after opsShift V (Proc.devRef .tc main_arg1) = V (Proc.devRef .tc main_arg1) := by
  after_results <;> rfl
theorem keepShift_main_arg2 (V : Valuation τ sig (Elt F)) : after opsShift V (Proc.devRef .tc main_arg2) = V (Proc.devRef .tc main_arg2) := by
  after_results <;> rfl
theorem keepShift_main_arg3 (V : Valuation τ sig (Elt F)) : after opsShift V (Proc.devRef .tc main_arg3) = V (Proc.devRef .tc main_arg3) := by
  after_results <;> rfl
theorem keepLse_main_arg0 (V : Valuation τ sig (Elt F)) : after opsLse V (Proc.devRef .tc main_arg0) = V (Proc.devRef .tc main_arg0) := by
  after_results <;> rfl
theorem keepLse_main_arg1 (V : Valuation τ sig (Elt F)) : after opsLse V (Proc.devRef .tc main_arg1) = V (Proc.devRef .tc main_arg1) := by
  after_results <;> rfl
theorem keepLse_main_arg2 (V : Valuation τ sig (Elt F)) : after opsLse V (Proc.devRef .tc main_arg2) = V (Proc.devRef .tc main_arg2) := by
  after_results <;> rfl
theorem keepLse_main_arg3 (V : Valuation τ sig (Elt F)) : after opsLse V (Proc.devRef .tc main_arg3) = V (Proc.devRef .tc main_arg3) := by
  after_results <;> rfl
theorem keep_main_arg0 (V : Valuation τ sig (Elt F)) : after ops V (Proc.devRef .tc main_arg0) = V (Proc.devRef .tc main_arg0) := by
  rw [after_append, after_append, keepLse_main_arg0, keepShift_main_arg0, keepLogits_main_arg0]
theorem keep_main_arg1 (V : Valuation τ sig (Elt F)) : after ops V (Proc.devRef .tc main_arg1) = V (Proc.devRef .tc main_arg1) := by
  rw [after_append, after_append, keepLse_main_arg1, keepShift_main_arg1, keepLogits_main_arg1]
theorem keep_main_arg2 (V : Valuation τ sig (Elt F)) : after ops V (Proc.devRef .tc main_arg2) = V (Proc.devRef .tc main_arg2) := by
  rw [after_append, after_append, keepLse_main_arg2, keepShift_main_arg2, keepLogits_main_arg2]
theorem keep_main_arg3 (V : Valuation τ sig (Elt F)) : after ops V (Proc.devRef .tc main_arg3) = V (Proc.devRef .tc main_arg3) := by
  rw [after_append, after_append, keepLse_main_arg3, keepShift_main_arg3, keepLogits_main_arg3]

/-- THE REFERENCE'S RUN: on every device, for any float values, from any memory with zero counters, every weakly fair
    execution of @main terminates with the result buffer at the log-softmax of the logits' term of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
        = hostLogSoftmax (F := F) (ReadP.val_main_v11 (F := F) (m ((c.tc : Thread nD τ).loc main_arg0)) (m ((c.tc : Thread nD τ).loc main_arg1))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v12).trans (result_eq _),
      (h c main_arg0).trans (keep_main_arg0 _),
      (h c main_arg1).trans (keep_main_arg1 _),
      (h c main_arg2).trans (keep_main_arg2 _),
      (h c main_arg3).trans (keep_main_arg3 _)⟩)
    (run_seq scopedRefs_eq scopedSems_eq defs main (fun _ => ops) main_eq (fun _ => ops_sub) m ρ)

end Cert.ReferenceIdeal.HostRun

end
-- ==== Proof.RefValue.lean ====
/-
  The reference's result is `G` of its arguments.

  The reference's logits, stage by stage (the generated read-at-an-index lemmas): at (b, t, u, k) the sum of two
  broadcasts — the encoder's `dot_general` at (b, t, k) spread over the decoder's steps, the decoder's at (b, u, k) spread
  over the encoder's — plus the bias spread over everything. Each `dot_general` contracts the feature axis of its left
  operand with the COLUMN axis of a column slice of the weights, so at (b, t, k) it is `Σ_d enc[b,t,d]·W[k, d]`, and with
  the second slice `Σ_d dec[b,u,d]·W[k, 512+d]`: the specification's two projections, the indices matching coordinate by
  coordinate. The reference adds the bias LAST, `(E + D) + bias`; the specification's row adds it to the decoder's
  projection first; the two agree by associativity (`logit_assoc`). The log-softmax over that row is then the same
  function on both sides (`hostLogSoftmax_apply`).
-/
import proofs.«137516_j14903536517746_2_alg».proof.Proof.RefRead
import proofs.«137516_j14903536517746_2_alg».proof.Proof.HostTail
import proofs.«137516_j14903536517746_2_alg».proof.Proof.RowLogSoftmax
import Idealize.ShloMosaic.Lib.ValueIdx

noncomputable section

open scoped BigOperators

namespace Cert.ReferenceIdeal.RefValue

open Cert.ReferenceIdeal Cert.ReferenceIdeal.Gen Cert.ReferenceIdeal.ReadP Cert.ReferenceIdeal.HostTail
open Idealize.ShloMosaic Idealize.ShloMosaic.ValueIdx Cert.JointLogSoftmax

/-- The reference's logits at (b, t, u, k): the specification's row of logits at (b, t, u), at `k`. -/
theorem refLogits_apply (x0 : FVec Ideal S4x256x512 .f32) (x1 : FVec Ideal S4x64x512 .f32) (x2 : FVec Ideal S1024x1024 .f32)
    (x3 : FVec Ideal S1024 .f32) (b : Fin 4) (t : Fin 256) (u : Fin 64) (k : Fin 1024) :
    val_main_v11 (F := Ideal) x0 x1 x2 x3 (ix4 b t u k) = logits x0 x1 x2 x3 b t u k := by
  have e0 : ∀ d : Fin 512, lidx_main_v2 (idx_main_v4 (idx_main_v6 (ix4 b t u k))) d = ix3 b t d := fun d =>
    funext fun a => Fin.ext (by match a with | ⟨0, _⟩ => rfl | ⟨1, _⟩ => rfl | ⟨2, _⟩ => rfl)
  have e1 : ∀ d : Fin 512, idx_main_v0 (ridx_main_v2 (idx_main_v4 (idx_main_v6 (ix4 b t u k))) d) = ix2 k (colEnc d) := fun d =>
    funext fun a => Fin.ext (by match a with | ⟨0, _⟩ => rfl | ⟨1, _⟩ => rfl)
  have e2 : ∀ d : Fin 512, lidx_main_v3 (idx_main_v5 (idx_main_v7 (ix4 b t u k))) d = ix3 b u d := fun d =>
    funext fun a => Fin.ext (by match a with | ⟨0, _⟩ => rfl | ⟨1, _⟩ => rfl | ⟨2, _⟩ => rfl)
  have e3 : ∀ d : Fin 512, idx_main_v1 (ridx_main_v3 (idx_main_v5 (idx_main_v7 (ix4 b t u k))) d) = ix2 k (colDec d) := fun d =>
    funext fun a => Fin.ext (by match a with | ⟨0, _⟩ => rfl | ⟨1, _⟩ => rfl)
  have e4 : idx_main_v9 (idx_main_v10 (ix4 b t u k)) = ix1 k :=
    funext fun a => Fin.ext (by match a with | ⟨0, _⟩ => rfl)
  refine Eq.trans ?_ (logit_assoc x0 x1 x2 x3 b t u k)
  rw [val_main_v11_apply, val_main_v8_apply, val_main_v6_apply, val_main_v4_apply, val_main_v2_apply,
    val_main_v7_apply, val_main_v5_apply, val_main_v3_apply, val_main_v10_apply, val_main_v9_apply]
  unfold encProj decProj
  refine congrArg₂ (fun y z : EReal => y + z)
    (congrArg₂ (fun y z : EReal => y + z)
      (Finset.sum_congr rfl fun d _ => ?_) (Finset.sum_congr rfl fun d _ => ?_))
    (congrArg x3 e4)
  · rw [val_main_v0_apply]
    exact congrArg₂ (fun y z : EReal => y * z) (congrArg x0 (e0 d)) (congrArg x2 (e1 d))
  · rw [val_main_v1_apply]
    exact congrArg₂ (fun y z : EReal => y * z) (congrArg x1 (e2 d)) (congrArg x2 (e3 d))

/-- THE REFERENCE'S RESULT TERM IS `G`: the log-softmax of the logits' stage, as one array, is the specification. -/
theorem ref_eq (x0 : FVec Ideal S4x256x512 .f32) (x1 : FVec Ideal S4x64x512 .f32) (x2 : FVec Ideal S1024x1024 .f32)
    (x3 : FVec Ideal S1024 .f32) :
    hostLogSoftmax (F := Ideal) (val_main_v11 (F := Ideal) x0 x1 x2 x3) = G x0 x1 x2 x3 := by
  funext i
  obtain ⟨b, t, u, v, rfl⟩ : ∃ (b : Fin 4) (t : Fin 256) (u : Fin 64) (v : Fin 1024), i = ix4 b t u v :=
    ⟨i 0, i 1, i 2, i 3, eq_ix4 i⟩
  rw [hostLogSoftmax_apply, G_ix4]
  exact congrArg (fun r => logSoftmaxRow r v) (funext fun k => refLogits_apply x0 x1 x2 x3 b t u k)

end Cert.ReferenceIdeal.RefValue

end
-- ==== Proof.lean ====
/-
  The kernel computes, for every batch entry b, encoder step t and decoder step u, the log-softmax over the 1024
  vocabulary entries of the logits
      logit (b, t, u, v) = Σ_d enc[b,t,d]·W[v,d] + Σ_d dec[b,u,d]·W[v,512+d] + bias[v],
  and so does the reference; over the extended reals the two results are one function `G` of the four arguments
  (Proof/RowLogSoftmax.lean), index by index.

  • The kernel (Proof/KernelBlock.lean, KernelWindows.lean, KernelArray.lean): a grid point holds 32 encoder steps and 32
    decoder steps of one batch entry and the transposed halves of the weights; its stored block at (p, q, v) is the
    log-softmax at `v` of the row `k ↦ Σ_d enc·wenc + (Σ_d dec·wdec + bias)` — two matrix products into zero accumulators,
    the narrowing to bf16 the identity on extended reals, the row maximum a fold of `max` from −∞, the row sum a sum from
    0 —, which is block (b, ti, ui) of `G`; the 64 blocks cover the result array.
  • The reference (Proof/HostRun.lean, HostTail.lean, RefValue.lean): a straight line of host operations; its logits are the
    same two contractions (an einsum against a column slice of the weights) with the bias added last, and jax's
    `log_softmax` over them takes the row maximum from −∞ — and once more against −∞, which changes nothing —, shifts,
    exponentiates, sums from 0, takes the logarithm and subtracts.
  The one law that joins the two sides is the associativity of addition on the extended reals,
  `E + (D + bias) = (E + D) + bias`, which holds at the infinities too: the precondition (finite inputs) is never opened.
  The ideal pass rewrote nothing in the kernel, so `preserves` is `True`. The three frames are the two generated frame
  certificates and the reference's run with its result dropped.
-/
import proofs.«137516_j14903536517746_2_alg».proof.Defs
import proofs.«137516_j14903536517746_2_alg».proof.Proof.Gen.Kernel
import proofs.«137516_j14903536517746_2_alg».proof.Proof.Gen.Kernel.Skeleton
import proofs.«137516_j14903536517746_2_alg».proof.Proof.Gen.Kernel.Launch
import proofs.«137516_j14903536517746_2_alg».proof.Proof.Gen.Kernel.Points
import proofs.«137516_j14903536517746_2_alg».proof.Proof.Gen.Kernel.Frame
import proofs.«137516_j14903536517746_2_alg».proof.Proof.Gen.KernelIdeal
import proofs.«137516_j14903536517746_2_alg».proof.Proof.Gen.KernelIdeal.Skeleton
import proofs.«137516_j14903536517746_2_alg».proof.Proof.Gen.KernelIdeal.Launch
import proofs.«137516_j14903536517746_2_alg».proof.Proof.Gen.KernelIdeal.Points
import proofs.«137516_j14903536517746_2_alg».proof.Proof.Gen.KernelIdeal.Frame
import proofs.«137516_j14903536517746_2_alg».proof.Proof.Gen.KernelIdeal.Value
import proofs.«137516_j14903536517746_2_alg».proof.Proof.Gen.ReferenceIdeal
import proofs.«137516_j14903536517746_2_alg».proof.Proof.Gen.Pre_finite_inputs
import proofs.«137516_j14903536517746_2_alg».proof.Proof.KernelArray
import proofs.«137516_j14903536517746_2_alg».proof.Proof.HostRun
import proofs.«137516_j14903536517746_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments: its run with what it says of the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The idealization rewrote no operation: nothing to restate. -/
theorem preserves : Cert.preserves_Kernel_KernelIdeal := trivial

/-- At the ideal instance, from memories that agree on the four arguments, the kernel's result array ends at `G` of the
    arguments (the blocks' cover) and the reference's at the log-softmax of its logits' term of them, which is `G` too. -/
theorem algebraic : Cert.algebraic_KernelIdeal_ReferenceIdeal := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2.1, (hagree c).2.2.2]
  exact Cert.ReferenceIdeal.RefValue.ref_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
